-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S4096x4096 : Shape := ⟨2, ![4096, 4096]⟩
abbrev S4096 : Shape := ⟨1, ![4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S16384x4096 .f32) (main_arg1 : FVec F S4096x4096 .f32) (main_arg2 : FVec F S4096 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S16384x4096 : Shape := ⟨2, ![16384, 4096]⟩
abbrev S4096x4096 : Shape := ⟨2, ![4096, 4096]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S2048x1024 : Shape := ⟨2, ![2048, 1024]⟩
abbrev S1024x1024 : Shape := ⟨2, ![1024, 1024]⟩
abbrev S1x1024 : Shape := ⟨2, ![1, 1024]⟩

abbrev nBuf : Space → Nat
  | .hbm => 17
  | .vmem => 8
  | .smem => 0
  | _ => 0

abbrev bufTy : (tb : Table) → Fin (tcTables nBuf tb) → BufTy
  | .hbm, ⟨0, _⟩ => ⟨S16384x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S4096x4096, .bf16⟩
  | .hbm, ⟨14, _⟩ => ⟨S16384x4096, .bf16⟩
  | .hbm, ⟨15, _⟩ => ⟨S1x4096, .f32⟩
  | .hbm, ⟨16, _⟩ => ⟨S16384x4096, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S2048x1024, .f32⟩
  | .local _ .vmem, ⟨7, _⟩ => ⟨S2048x1024, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  reducesTo_S4096x4096_S4096_d1 : S4096x4096.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x4096_0_1 : S4096x1.BroadcastsInDim S4096x4096 (![0, 1] : Fin 2 → Fin S4096x4096.rank)
  bitsLt_bf16_f32 : FTy.bits .bf16 < FTy.bits .f32
  shapeCasts_S4096_S1x4096 : S4096.ShapeCasts S1x4096
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  dot_S2048x1024_S1024x1024_S2048x1024_1_1_0_0_n_n_wf : DotDims.WF S2048x1024 S1024x1024 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S16384x4096.size a
  hwx0_0 : ∀ i : grid0.Coords, EltTy.bits .bf16 = 32 ∨ (Rect.block (s := S16384x4096) S2048x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S16384x4096.size a
  hwx0_3 : ∀ i : grid0.Coords, EltTy.bits .f32 = 32 ∨ (Rect.block (s := S16384x4096) S2048x1024.size (cc0_transform_3 i) (hinb0_3 i)).WholeWords (EltTy.packing .f32)

variable [Facts₀]

def dot_S2048x1024_S1024x1024_S2048x1024_1_1_0_0_n_n : DotDims S2048x1024 S1024x1024 S2048x1024 where
  lhsContracting := [1]
  rhsContracting := [1]
  lhsNonContracting := [0]
  rhsNonContracting := [0]
  lhsBatch := []
  rhsBatch := []
  wf := dot_S2048x1024_S1024x1024_S2048x1024_1_1_0_0_n_n_wf

abbrev win0_0 : Pipeline.Window sig grid0 :=
  Pipeline.Window.ofSpec (Memref.whole main_v9) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x4096 : Shape := ⟨2, ![16384, 4096]⟩
abbrev S4096x4096 : Shape := ⟨2, ![4096, 4096]⟩
abbrev S4096 : Shape := ⟨1, ![4096]⟩
abbrev S_ : Shape := ⟨0, ![]⟩
abbrev S4096x1 : Shape := ⟨2, ![4096, 1]⟩
abbrev S1x4096 : Shape := ⟨2, ![1, 4096]⟩

abbrev nBuf : Space → Nat
  | .hbm => 17
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S16384x4096, .f32⟩
  | .hbm, ⟨14, _⟩ => ⟨S1x4096, .f32⟩
  | .hbm, ⟨15, _⟩ => ⟨S16384x4096, .f32⟩
  | .hbm, ⟨16, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]

class Facts₀ : Prop where
  reducesTo_S4096x4096_S4096_d1 : S4096x4096.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x4096_0_1 : S4096x1.BroadcastsInDim S4096x4096 (![0, 1] : Fin 2 → Fin S4096x4096.rank)
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  dot_S16384x4096_S4096x4096_S16384x4096_1_1_0_0_n_n_wf : DotDims.WF S16384x4096 S4096x4096 S16384x4096 [1] [1] [0] [0] [] []

variable [Facts₀]

def dot_S16384x4096_S4096x4096_S16384x4096_1_1_0_0_n_n : DotDims S16384x4096 S4096x4096 S16384x4096 where
  lhsContracting := [1]
  rhsContracting := [1]
  lhsNonContracting := [0]
  rhsNonContracting := [0]
  lhsBatch := []
  rhsBatch := []
  wf := dot_S16384x4096_S4096x4096_S16384x4096_1_1_0_0_n_n_wf

class Facts : Prop extends Facts₀ where

variable [Facts]
-- ==== Proof.Spec.lean ====
/-
  The function both programs compute, and the one law of sums that joins their two arrangements.

  A binarized linear layer: with the weight matrix replaced by some matrix `w` (both programs build the same
  `w = sign(W) · mean|W|` by the same operations before anything else happens, so it is kept abstract here),
  entry `(n, o)` of the result is `(Σ_k x[n,k] · w[o,k]) + b[o]`, the sum over all 4096 columns taken on the
  extended reals. The kernel never forms that sum at once: it cuts the 4096 columns into four consecutive
  stretches of 1024, starts from zero and adds one stretch's partial sum after the other. Addition of
  extended reals is associative and has `0` as a unit, so the two agree with no finiteness assumption.
-/
import Idealize.ShloMosaic.PureOps.Ideal
import Idealize.ShloMosaic.Lib.ValueIdx

noncomputable section

open scoped BigOperators

namespace Cert.BinLinear

open Idealize.ShloMosaic Idealize.ShloMosaic.ValueIdx

/-- Entry `(n, o)` of `x · wᵀ + b`: row `n` of `x` against row `o` of `w`, summed over the 4096 columns, plus
    `b` at `o`. -/
def affine (x : FVec Ideal ⟨2, ![16384, 4096]⟩ .f32) (w : FVec Ideal ⟨2, ![4096, 4096]⟩ .f32)
    (b : FVec Ideal ⟨1, ![4096]⟩ .f32) : FVec Ideal ⟨2, ![16384, 4096]⟩ .f32 :=
  fun i => (∑ k : Fin 4096, x (ix2 (i 0) k) * w (ix2 (i 1) k)) + b (ix1 (i 1))

/-- Column `j` of the `s`-th stretch of 1024 columns. -/
def col (s : Fin 4) (j : Fin 1024) : Fin 4096 := ⟨1024 * s.val + j.val, by have := s.isLt; have := j.isLt; omega⟩

@[simp] theorem col_val (s : Fin 4) (j : Fin 1024) : (col s j).val = 1024 * s.val + j.val := rfl

/-- A sum over the 4096 columns is zero plus the four stretches' partial sums, added left to right: the order in
    which the kernel accumulates. Holds in any commutative monoid, so on the extended reals too. -/
theorem sum_by_stretches {M : Type*} [AddCommMonoid M] (f : Fin 4096 → M) :
    ∑ k : Fin 4096, f k
      = (((0 + ∑ j : Fin 1024, f (col 0 j)) + ∑ j : Fin 1024, f (col 1 j)) + ∑ j : Fin 1024, f (col 2 j))
          + ∑ j : Fin 1024, f (col 3 j) := by
  have e : ∀ (s : Fin 4) (j : Fin 1024), (finProdFinEquiv (m := 4) (n := 1024)) (s, j) = col s j := fun s j =>
    Fin.ext (by show j.val + 1024 * s.val = 1024 * s.val + j.val; omega)
  rw [← Equiv.sum_comp (finProdFinEquiv (m := 4) (n := 1024)) f, Fintype.sum_prod_type, Fin.sum_univ_four, zero_add]
  simp only [e]

end Cert.BinLinear

end
-- ==== Proof.Blocks.lean ====
/-
  The kernel's three input windows, read at one entry as entries of the argument arrays.

  The grid has 8 × 4 × 4 points `(a, b, s)`, numbered `t = 16·a + 4·b + s`: `a` picks 2048 rows of `x`, `b` picks
  1024 output columns (rows of the weight), `s` picks 1024 of the 4096 contraction columns. At point `t` the kernel
  sees block `(a, s)` of `x`, block `(b, s)` of the binarized weight, and block `(0, b)` of the bias viewed as one row.
  The arrays the windows cut are written by the host operations in front of the call: `x` and the binarized weight
  narrowed to bf16 — the identity on extended reals — and the bias reshaped from [4096] to [1, 4096], which keeps
  entry `o` at `(0, o)`. So entry `(p, k)` of the `x` block is `x[2048·a + p, 1024·s + k]`, entry `(q, k)` of the
  weight block is `w[1024·b + q, 1024·s + k]`, and entry `(0, q)` of the bias block is `bias[1024·b + q]`.
-/
import proofs.«171375_j38147899523752_2_alg».proof.Proof.Gen.KernelIdeal.Value
import proofs.«171375_j38147899523752_2_alg».proof.Proof.Spec
import Idealize.ShloMosaic.Lib.ValueIdx
import Idealize.ShloMosaic.Lib.Pipeline.Value
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.ValueIdx Idealize.ShloMosaic.StableHlo
open Cert.BinLinear (col col_val)

variable (m : (ℓ : Loc nD τ sig) → Buf (Elt Ideal) ℓ)

/-- The weight as the host operations in front of the call binarize it: `sign(W)` times the row's mean absolute
    value (the row's sum of `|W|` divided by 4096), before the narrowing to bf16. Never opened: the reference builds
    the same term. -/
def binarized (W : FVec Ideal S4096x4096 .f32) : FVec Ideal S4096x4096 .f32 :=
  mulf (Host.sign W)
    (broadcastInDim S4096x4096 ![0, 1] bcast_S4096x1_S4096x4096_0_1
      (Host.divf
        (broadcastInDim S4096x1 ![0] bcast_S4096_S4096x1_0
          (Host.reduceAdd (Host.absf W) (constant (F := Ideal) S_ .f32 0x00000000#32) reducesTo_S4096x4096_S4096_d1 h_S_))
        (broadcastInDim S4096x1 ![] bcast_S_S4096x1 (constant (F := Ideal) S_ .f32 0x45800000#32))))

/-! ## The arrays the windows cut -/

/-- Window 0's array is `x`, narrowed: entry by entry `x` itself. -/
theorem x_array (c : Dev nD) (j : S16384x4096.Idx) :
    @Eq EReal (V m c main_v9 j) (m ((c : Thread nD τ).loc main_arg0) j) := by
  have e : @Eq (FVec Ideal S16384x4096 .bf16) (V m c main_v9)
      (truncf .bf16 (m ((c : Thread nD τ).loc main_arg0)) bitsLt_bf16_f32) := by
    dsimp only [Gen.V, Gen.hostOps0]; after_results
  exact congrFun e j

/-- Window 1's array is the binarized weight, narrowed: entry by entry the binarized weight itself. -/
theorem w_array (c : Dev nD) (j : S4096x4096.Idx) :
    @Eq EReal (V m c main_v8 j) (binarized (m ((c : Thread nD τ).loc main_arg1)) j) := by
  have e : @Eq (FVec Ideal S4096x4096 .bf16) (V m c main_v8)
      (truncf .bf16 (binarized (m ((c : Thread nD τ).loc main_arg1))) bitsLt_bf16_f32) := by
    dsimp only [Gen.V, Gen.hostOps0]; after_results; rfl
  exact congrFun e j

/-- Window 2's array is the bias as one row: entry `(0, o)` is `bias[o]`. -/
theorem b_array (c : Dev nD) (j : S1x4096.Idx) (o : Fin 4096) (ho : (j 1).val = o.val) :
    @Eq EReal (V m c main_v10 j) (m ((c : Thread nD τ).loc main_arg2) (ix1 o)) := by
  have e : @Eq (FVec Ideal S1x4096 .f32) (V m c main_v10)
      (shapeCast S1x4096 (m ((c : Thread nD τ).loc main_arg2)) shapeCasts_S4096_S1x4096) := by
    dsimp only [Gen.V, Gen.hostOps0]; after_results; rfl
  refine (congrFun e j).trans ?_
  refine (shapeCast_addUnit_apply ![4096] (m ((c : Thread nD τ).loc main_arg2)) shapeCasts_S4096_S1x4096 j).trans ?_
  exact congrArg (m ((c : Thread nD τ).loc main_arg2)) (funext fun d => Fin.ext (by
    match d with
    | ⟨0, _⟩ => exact ho))

/-! ## Which block each window shows at each grid point -/

/-- The printed index maps, decided over the 128 grid points. -/
theorem index_facts : ∀ t : Fin cfg0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 2) = 0 ∧ win0_2.index t (1 : Fin 2) = t.val / 4 % 4 :=
  (by decide +kernel : ∀ t : Fin grid0.N, _)

/-- Entry `y` of window 0's block at point `t` is the array's entry at row `2048·(t / 16) + y₀`, column
    `1024·(t % 4) + y₁`. -/
theorem x_block_apply (c : Dev nD) (t : Fin cfg0.N) (y : S2048x1024.Idx) (j : S16384x4096.Idx)
    (h0 : (j 0).val = t.val / 16 * 2048 + (y 0).val) (h1 : (j 1).val = t.val % 4 * 1024 + (y 1).val) :
    @Eq EReal ((iblk m c 0 t : Vec Ideal S2048x1024 .bf16) y) (V m c main_v9 j) := by
  obtain ⟨e0, e1, -⟩ := index_facts t
  unfold iblk
  rw [View.read_apply]
  show V m c main_v9 _ = V m c main_v9 j
  refine congrArg (V m c main_v9) (funext fun d => Fin.ext ?_)
  match d with
  | ⟨0, _⟩ => show win0_0.index t 0 * 2048 + 1 * (y 0).val = (j 0).val; rw [e0, h0]; omega
  | ⟨1, _⟩ => show win0_0.index t 1 * 1024 + 1 * (y 1).val = (j 1).val; rw [e1, h1]; omega

/-- Entry `y` of window 1's block at point `t` is the array's entry at row `1024·(t / 4 % 4) + y₀`, column
    `1024·(t % 4) + y₁`. -/
theorem w_block_apply (c : Dev nD) (t : Fin cfg0.N) (y : S1024x1024.Idx) (j : S4096x4096.Idx)
    (h0 : (j 0).val = t.val / 4 % 4 * 1024 + (y 0).val) (h1 : (j 1).val = t.val % 4 * 1024 + (y 1).val) :
    @Eq EReal ((iblk m c 1 t : Vec Ideal S1024x1024 .bf16) y) (V m c main_v8 j) := by
  obtain ⟨-, -, e0, e1, -⟩ := index_facts t
  unfold iblk
  rw [View.read_apply]
  show V m c main_v8 _ = V m c main_v8 j
  refine congrArg (V m c main_v8) (funext fun d => Fin.ext ?_)
  match d with
  | ⟨0, _⟩ => show win0_1.index t 0 * 1024 + 1 * (y 0).val = (j 0).val; rw [e0, h0]; omega
  | ⟨1, _⟩ => show win0_1.index t 1 * 1024 + 1 * (y 1).val = (j 1).val; rw [e1, h1]; omega

/-- Entry `y` of window 2's block at point `t` is the one-row array's entry at column `1024·(t / 4 % 4) + y₁`. -/
theorem b_block_apply (c : Dev nD) (t : Fin cfg0.N) (y : S1x1024.Idx) (j : S1x4096.Idx)
    (h1 : (j 1).val = t.val / 4 % 4 * 1024 + (y 1).val) :
    @Eq EReal ((iblk m c 2 t : Vec Ideal S1x1024 .f32) y) (V m c main_v10 j) := by
  obtain ⟨-, -, -, -, e0, e1⟩ := index_facts t
  have hy0 : (y 0).val = 0 := by have h : (y 0).val < 1 := (y 0).isLt; omega
  have hj0 : (j 0).val = 0 := by have h : (j 0).val < 1 := (j 0).isLt; omega
  unfold iblk
  rw [View.read_apply]
  show V m c main_v10 _ = V m c main_v10 j
  refine congrArg (V m c main_v10) (funext fun d => Fin.ext ?_)
  match d with
  | ⟨0, _⟩ => show win0_2.index t 0 * 1 + 1 * (y 0).val = (j 0).val; rw [e0, hy0, hj0]
  | ⟨1, _⟩ => show win0_2.index t 1 * 1024 + 1 * (y 1).val = (j 1).val; rw [e1, h1]; omega

/-! ## The blocks' entries as entries of the arguments

For array entry `i = (n, o)`, the run of four points that accumulates it starts at
`16·(n / 2048) + 4·(o / 1024)`; its point number `s` sees the `s`-th stretch of contraction columns. -/

/-- Row `n % 2048`, column `k` of the `x` block at the run's point `s` is `x[n, 1024·s + k]`. -/
theorem x_entry (c : Dev nD) (i : S16384x4096.Idx) (t : Fin cfg0.N) (s : Fin 4)
    (ht : t.val = 16 * ((i 0).val / 2048) + 4 * ((i 1).val / 1024) + s.val)
    (p : Fin 2048) (hp : p.val = (i 0).val % 2048) (k : Fin 1024) :
    @Eq EReal ((iblk m c 0 t : Vec Ideal S2048x1024 .bf16) (ix2 p k))
      (m ((c : Thread nD τ).loc main_arg0) (ix2 (i 0) (col s k))) := by
  have hs := s.isLt
  have hi1 : (i 1).val < 4096 := (i 1).isLt
  have hk := k.isLt
  refine (x_block_apply m c t (ix2 p k) (ix2 (i 0) (col s k)) ?_ ?_).trans (x_array m c _)
  · show (i 0).val = t.val / 16 * 2048 + p.val
    omega
  · show (col s k).val = t.val % 4 * 1024 + k.val
    rw [col_val]; omega

/-- Row `o % 1024`, column `k` of the weight block at the run's point `s` is the binarized weight at
    `[o, 1024·s + k]`. -/
theorem w_entry (c : Dev nD) (i : S16384x4096.Idx) (t : Fin cfg0.N) (s : Fin 4)
    (ht : t.val = 16 * ((i 0).val / 2048) + 4 * ((i 1).val / 1024) + s.val)
    (q : Fin 1024) (hq : q.val = (i 1).val % 1024) (k : Fin 1024) :
    @Eq EReal ((iblk m c 1 t : Vec Ideal S1024x1024 .bf16) (ix2 q k))
      (binarized (m ((c : Thread nD τ).loc main_arg1)) (ix2 (i 1) (col s k))) := by
  have hs := s.isLt
  have hi1 : (i 1).val < 4096 := (i 1).isLt
  have hk := k.isLt
  refine (w_block_apply m c t (ix2 q k) (ix2 (i 1) (col s k)) ?_ ?_).trans (w_array m c _)
  · show (i 1).val = t.val / 4 % 4 * 1024 + q.val
    omega
  · show (col s k).val = t.val % 4 * 1024 + k.val
    rw [col_val]; omega

/-- The bias block's entry `(0, o % 1024)` at any point of the run is `bias[o]`. -/
theorem b_entry (c : Dev nD) (i : S16384x4096.Idx) (t : Fin cfg0.N) (s : Fin 4)
    (ht : t.val = 16 * ((i 0).val / 2048) + 4 * ((i 1).val / 1024) + s.val)
    (q : Fin 1024) (hq : q.val = (i 1).val % 1024) :
    @Eq EReal ((iblk m c 2 t : Vec Ideal S1x1024 .f32) (ix2 (0 : Fin 1) q))
      (m ((c : Thread nD τ).loc main_arg2) (ix1 (i 1))) := by
  have hs := s.isLt
  have hi1 : (i 1).val < 4096 := (i 1).isLt
  refine (b_block_apply m c t (ix2 (0 : Fin 1) q) (ix2 (0 : Fin 1) (i 1)) ?_).trans (b_array m c _ (i 1) rfl)
  show (i 1).val = t.val / 4 % 4 * 1024 + q.val
  omega

end Cert.KernelIdeal.Blocks

end
-- ==== Proof.Payload.lean ====
/-
  What the kernel body computes at one entry of its output block, on the extended reals.

  The body keeps a [2048, 1024] accumulator. At the first of the four steps along the contraction axis it sets the
  accumulator to zero; at every step it adds to entry `(p, q)` the partial inner product
  `Σ_k a[p,k] · w[q,k]` of row `p` of the step's [2048, 1024] block of `x` with row `q` of the step's
  [1024, 1024] block of the weight (both contracted along their second axis: the weight is used untransposed);
  at the last step it adds the bias row, entry `q`, to every row. On the extended reals the matrix product with a
  zero accumulator is exactly that finite sum and the additions are exact.
-/
import proofs.«171375_j38147899523752_2_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-! ## The product's operand indices: output entry `(p, q)` and contraction position `k` meet the left operand at
    `(p, k)` and the right operand at `(q, k)` -/

theorem lhs_row (i : S2048x1024.Idx) (r : dot_S2048x1024_S1024x1024_S2048x1024_1_1_0_0_n_n.contr.Idx) :
    (dot_S2048x1024_S1024x1024_S2048x1024_1_1_0_0_n_n.lhsIdx i r 0).val = (i 0).val := by
  unfold DotDims.lhsIdx
  rw [dif_neg (show ¬(0 : Fin S2048x1024.rank) ∈ dot_S2048x1024_S1024x1024_S2048x1024_1_1_0_0_n_n.lhsBatch by decide),
    dif_pos (show (0 : Fin S2048x1024.rank) ∈ dot_S2048x1024_S1024x1024_S2048x1024_1_1_0_0_n_n.lhsNonContracting by decide)]
  rfl

theorem lhs_col (i : S2048x1024.Idx) (r : dot_S2048x1024_S1024x1024_S2048x1024_1_1_0_0_n_n.contr.Idx) :
    (dot_S2048x1024_S1024x1024_S2048x1024_1_1_0_0_n_n.lhsIdx i r 1).val = (r ⟨0, by decide⟩).val :=
  dot_S2048x1024_S1024x1024_S2048x1024_1_1_0_0_n_n.lhsIdx_val_of_single rfl i r

theorem rhs_row (i : S2048x1024.Idx) (r : dot_S2048x1024_S1024x1024_S2048x1024_1_1_0_0_n_n.contr.Idx) :
    (dot_S2048x1024_S1024x1024_S2048x1024_1_1_0_0_n_n.rhsIdx i r 0).val = (i 1).val := by
  unfold DotDims.rhsIdx
  rw [dif_neg (show ¬(0 : Fin S1024x1024.rank) ∈ dot_S2048x1024_S1024x1024_S2048x1024_1_1_0_0_n_n.rhsBatch by decide),
    dif_pos (show (0 : Fin S1024x1024.rank) ∈ dot_S2048x1024_S1024x1024_S2048x1024_1_1_0_0_n_n.rhsNonContracting by decide)]
  rfl

theorem rhs_col (i : S2048x1024.Idx) (r : dot_S2048x1024_S1024x1024_S2048x1024_1_1_0_0_n_n.contr.Idx) :
    (dot_S2048x1024_S1024x1024_S2048x1024_1_1_0_0_n_n.rhsIdx i r 1).val = (r ⟨0, by decide⟩).val :=
  dot_S2048x1024_S1024x1024_S2048x1024_1_1_0_0_n_n.rhsIdx_val_of_single rfl i r

/-- The matrix product into a zero accumulator, at entry `(p, q)`: the inner product of row `p` of the left block
    and row `q` of the right block over the 1024 contraction positions. -/
theorem product_apply (a : FVec Ideal S2048x1024 .bf16) (w : FVec Ideal S1024x1024 .bf16) (p : Fin 2048) (q : Fin 1024) :
    matmul dot_S2048x1024_S1024x1024_S2048x1024_1_1_0_0_n_n none a w (constant (F := Ideal) S2048x1024 .f32 0x00000000#32) (ix2 p q)
      = ∑ k : Fin 1024, a (ix2 p k) * w (ix2 q k) := by
  simp only [matmul]
  rw [Ideal.matmul_constant_zero_apply, ← Equiv.sum_comp (contrEquiv1 dot_S2048x1024_S1024x1024_S2048x1024_1_1_0_0_n_n 1024 rfl rfl).symm]
  refine Finset.sum_congr rfl fun k _ => ?_
  have hk := contrEquiv1_symm_val dot_S2048x1024_S1024x1024_S2048x1024_1_1_0_0_n_n 1024 rfl rfl k
  have el : dot_S2048x1024_S1024x1024_S2048x1024_1_1_0_0_n_n.lhsIdx (ix2 p q) ((contrEquiv1 dot_S2048x1024_S1024x1024_S2048x1024_1_1_0_0_n_n 1024 rfl rfl).symm k) = ix2 p k :=
    funext fun d => Fin.ext (by
      match d with
      | ⟨0, _⟩ => exact lhs_row _ _
      | ⟨1, _⟩ => exact (lhs_col _ _).trans hk)
  have er : dot_S2048x1024_S1024x1024_S2048x1024_1_1_0_0_n_n.rhsIdx (ix2 p q) ((contrEquiv1 dot_S2048x1024_S1024x1024_S2048x1024_1_1_0_0_n_n 1024 rfl rfl).symm k) = ix2 q k :=
    funext fun d => Fin.ext (by
      match d with
      | ⟨0, _⟩ => exact rhs_row _ _
      | ⟨1, _⟩ => exact (rhs_col _ _).trans hk)
  rw [el, er]

/-! ## The three stored values at an entry -/

/-- The reset value is zero everywhere. -/
theorem reset_apply (y : S2048x1024.Idx) : k0_pay1 (F := Ideal) y = 0 := by
  unfold k0_pay1
  exact Ideal.ofBits_zero_f32

/-- One accumulation step at entry `(p, q)`: what was there plus the step's partial inner product. -/
theorem step_apply (acc : Vec Ideal S2048x1024 .f32) (a : Vec Ideal S2048x1024 .bf16) (w : Vec Ideal S1024x1024 .bf16)
    (p : Fin 2048) (q : Fin 1024) :
    k0_pay2 acc a w (ix2 p q) = acc (ix2 p q) + ∑ k : Fin 1024, a (ix2 p k) * w (ix2 q k) := by
  have h : k0_pay2 acc a w
      = addf (φ := .f32) acc (matmul (φ₁ := .bf16) (φ₂ := .bf16) dot_S2048x1024_S1024x1024_S2048x1024_1_1_0_0_n_n none a w (constant (F := Ideal) S2048x1024 .f32 0x00000000#32)) := by
    unfold k0_pay2
    simp only [shapeCast_self]
  rw [h, addf_apply, product_apply]

/-- The closing step at entry `(p, q)`: what was there plus the bias row's entry `q`. -/
theorem bias_apply (acc : Vec Ideal S2048x1024 .f32) (b : Vec Ideal S1x1024 .f32) (p : Fin 2048) (q : Fin 1024) :
    k0_pay3 acc b (ix2 p q) = acc (ix2 p q) + b (ix2 (0 : Fin 1) q) := by
  have h : k0_pay3 acc b = addf (φ := .f32) acc (broadcastTo S2048x1024 b broadcasts_S1x1024_S2048x1024) := by
    unfold k0_pay3
    simp only [shapeCast_self]
  rw [h, addf_apply]
  refine congrArg (acc (ix2 p q) + ·) ?_
  exact broadcastTo_apply b broadcasts_S1x1024_S2048x1024 (ix2 p q) (ix2 (0 : Fin 1) q) (fun d => match d with
    | ⟨0, _⟩ => by show 0 = if (1 : Nat) = 1 then 0 else p.val; rw [if_pos rfl]
    | ⟨1, _⟩ => by show q.val = if (1024 : Nat) = 1 then 0 else q.val; rw [if_neg (by decide)])

/-- The whole run of four steps at entry `(p, q)`: zero, plus the four partial inner products in order, plus the
    bias entry. -/
theorem run_apply (a0 a1 a2 a3 : Vec Ideal S2048x1024 .bf16) (w0 w1 w2 w3 : Vec Ideal S1024x1024 .bf16)
    (b : Vec Ideal S1x1024 .f32) (p : Fin 2048) (q : Fin 1024) :
    k0_pay3 (k0_pay2 (k0_pay2 (k0_pay2 (k0_pay2 (k0_pay1 (F := Ideal)) a0 w0) a1 w1) a2 w2) a3 w3) b (ix2 p q)
      = ((((0 + ∑ k : Fin 1024, a0 (ix2 p k) * w0 (ix2 q k)) + ∑ k : Fin 1024, a1 (ix2 p k) * w1 (ix2 q k))
            + ∑ k : Fin 1024, a2 (ix2 p k) * w2 (ix2 q k)) + ∑ k : Fin 1024, a3 (ix2 p k) * w3 (ix2 q k))
          + b (ix2 (0 : Fin 1) q) := by
  rw [bias_apply, step_apply, step_apply, step_apply, step_apply, reset_apply]

end Cert.KernelIdeal.Body

end
-- ==== Proof.KernelSide.lean ====
/-
  The kernel's result array is the affine map of `Spec.lean` applied to `x`, the binarized weight and the bias.

  Array entry `i = (n, o)` lies in the output block `(n / 2048, o / 1024)`, at place `(n % 2048, o % 1024)`. That
  block is accumulated over a run of four consecutive grid points and written back after the last. Unrolling the
  run: zero, then four times "add the partial inner product over this point's 1024 contraction columns", then "add
  the bias entry". The four stretches of columns are consecutive and together are all 4096 columns, so by the
  regrouping law of `Spec.lean` the accumulated value is the full inner product plus the bias.
-/
import proofs.«171375_j38147899523752_2_alg».proof.Proof.Blocks
import proofs.«171375_j38147899523752_2_alg».proof.Proof.Payload

noncomputable section

namespace Cert.KernelIdeal.RefValue

open Cert.KernelIdeal Cert.KernelIdeal.Gen Idealize.ShloMosaic Idealize.ShloMosaic.TcCoe Idealize.SL.Sem
open Idealize.ShloMosaic.ValueIdx
open Cert.BinLinear (col col_val)

variable (m : (ℓ : Loc nD τ sig) → Buf (Elt Ideal) ℓ)

/-! ## The run's steps, by the point's place in the run -/

/-- At the run's second and third points the step only accumulates. -/
theorem step_mid (c : Dev nD) (n : ℕ) (h : n < cfg0.N) (acc : Vec Ideal S2048x1024 .f32) (hn : n % 4 = 1 ∨ n % 4 = 2) :
    Value.step3 m c n h acc = k0_pay2 acc (iblk m c 0 ⟨n, h⟩) (iblk m c 1 ⟨n, h⟩) := by
  unfold Value.step3
  rw [if_pos (by omega)]

/-- At the run's last point the step accumulates and then adds the bias row. -/
theorem step_last (c : Dev nD) (n : ℕ) (h : n < cfg0.N) (acc : Vec Ideal S2048x1024 .f32) (hn : n % 4 = 3) :
    Value.step3 m c n h acc
      = k0_pay3 (k0_pay2 acc (iblk m c 0 ⟨n, h⟩) (iblk m c 1 ⟨n, h⟩)) (iblk m c 2 ⟨n, h⟩) := by
  unfold Value.step3
  rw [if_neg (by omega), if_pos (by omega)]

/-- The whole run from its first point `b` (a multiple of four), unrolled. -/
theorem fold_eq (c : Dev nD) (b : ℕ) (hb : b % 4 = 0) (h : b + 3 < cfg0.N) :
    Pipeline.accAt (Value.reset3 m c) (Value.step3 m c) b 3 h
      = k0_pay3 (k0_pay2 (k0_pay2 (k0_pay2 (k0_pay2 (k0_pay1 (F := Ideal))
            (iblk m c 0 ⟨b, by omega⟩) (iblk m c 1 ⟨b, by omega⟩))
            (iblk m c 0 ⟨b + 1, by omega⟩) (iblk m c 1 ⟨b + 1, by omega⟩))
            (iblk m c 0 ⟨b + 2, by omega⟩) (iblk m c 1 ⟨b + 2, by omega⟩))
            (iblk m c 0 ⟨b + 3, h⟩) (iblk m c 1 ⟨b + 3, h⟩)) (iblk m c 2 ⟨b + 3, h⟩) := by
  rw [Pipeline.accAt_succ, Pipeline.accAt_succ, Pipeline.accAt_succ, Pipeline.accAt_zero]
  rw [step_last m c _ _ _ (by omega), step_mid m c _ _ _ (by omega), step_mid m c _ _ _ (by omega)]
  rfl

/-! ## The result array -/

/-- What the kernel leaves in its result array: `x · wᵀ + bias` with `w` the binarized weight. -/
theorem G3_eq (c : Dev nD) :
    Value.G3 m c = Cert.BinLinear.affine (m ((c : Thread nD τ).loc main_arg0))
      (Blocks.binarized (m ((c : Thread nD τ).loc main_arg1))) (m ((c : Thread nD τ).loc main_arg2)) := by
  funext i
  have hi0 : (i 0).val < 16384 := (i 0).isLt
  have hi1 : (i 1).val < 4096 := (i 1).isLt
  have hN : cfg0.N = 128 := N_0
  have hr : Value.run3Of i = 4 * ((i 0).val / 2048) + (i 1).val / 1024 := by
    show 4 * ((i 0).val / 2048 - 0) + 1 * ((i 1).val / 1024 - 0) = _
    omega
  have hlt : 4 * Value.run3Of i + 3 < cfg0.N := by rw [hr, hN]; omega
  have hloc : Value.loc3Of i
      = ix2 (⟨(i 0).val % 2048, Nat.mod_lt _ (by decide)⟩ : Fin 2048) (⟨(i 1).val % 1024, Nat.mod_lt _ (by decide)⟩ : Fin 1024) :=
    funext fun d => by match d with | ⟨0, _⟩ => rfl | ⟨1, _⟩ => rfl
  unfold Value.G3
  rw [dif_pos hlt]
  refine (congrFun (fold_eq m c (4 * Value.run3Of i) (by omega) hlt) (Value.loc3Of i)).trans ?_
  rw [hloc]
  refine (Body.run_apply _ _ _ _ _ _ _ _ _ _ _).trans ?_
  unfold Cert.BinLinear.affine
  rw [Cert.BinLinear.sum_by_stretches]
  have hpt : ∀ s : ℕ, s < 4 → 4 * Value.run3Of i + s = 16 * ((i 0).val / 2048) + 4 * ((i 1).val / 1024) + s := fun s _ => by
    rw [hr]; omega
  refine congrArg₂ (· + ·) (congrArg₂ (· + ·) (congrArg₂ (· + ·) (congrArg₂ (· + ·) (congrArg (0 + ·) ?_) ?_) ?_) ?_) ?_
  · exact Finset.sum_congr rfl fun k _ => by
      rw [Blocks.x_entry m c i ⟨4 * Value.run3Of i, by omega⟩ 0 (hpt 0 (by omega)) _ rfl k,
        Blocks.w_entry m c i ⟨4 * Value.run3Of i, by omega⟩ 0 (hpt 0 (by omega)) _ rfl k]
  · exact Finset.sum_congr rfl fun k _ => by
      rw [Blocks.x_entry m c i ⟨4 * Value.run3Of i + 1, by omega⟩ 1 (hpt 1 (by omega)) _ rfl k,
        Blocks.w_entry m c i ⟨4 * Value.run3Of i + 1, by omega⟩ 1 (hpt 1 (by omega)) _ rfl k]
  · exact Finset.sum_congr rfl fun k _ => by
      rw [Blocks.x_entry m c i ⟨4 * Value.run3Of i + 2, by omega⟩ 2 (hpt 2 (by omega)) _ rfl k,
        Blocks.w_entry m c i ⟨4 * Value.run3Of i + 2, by omega⟩ 2 (hpt 2 (by omega)) _ rfl k]
  · exact Finset.sum_congr rfl fun k _ => by
      rw [Blocks.x_entry m c i ⟨4 * Value.run3Of i + 3, hlt⟩ 3 (hpt 3 (by omega)) _ rfl k,
        Blocks.w_entry m c i ⟨4 * Value.run3Of i + 3, hlt⟩ 3 (hpt 3 (by omega)) _ rfl k]
  · exact Blocks.b_entry m c i ⟨4 * Value.run3Of i + 3, hlt⟩ 3 (hpt 3 (by omega)) _ rfl

end Cert.KernelIdeal.RefValue

end
-- ==== Proof.RefSide.lean ====
/-
  The reference, read at one entry: it is the affine map of `Spec.lean` applied to `x`, the binarized weight and
  the bias.

  The reference's last three operations are one contraction of `x` with the binarized weight over the 4096
  columns of both (entry `(n, o)` pairs row `n` of `x` with row `o` of the weight), the bias broadcast first to
  one row and then down all 16384 rows (entry `(n, o)` reads `bias[o]`), and their entrywise sum. The
  binarized weight is whatever the seven operations before them produce; it is not opened here.
-/
import proofs.«171375_j38147899523752_2_alg».proof.Proof.Gen.ReferenceIdeal.Read
import proofs.«171375_j38147899523752_2_alg».proof.Proof.Spec

noncomputable section

namespace Cert.ReferenceIdeal.RefValue

open Cert.ReferenceIdeal Cert.ReferenceIdeal.Gen Cert.ReferenceIdeal.Read
open Idealize.ShloMosaic Idealize.ShloMosaic.ValueIdx

/-- Entry `(n, o)` of the reference's result is `(Σ_k x[n,k] · w[o,k]) + bias[o]` with `w` the binarized weight. -/
theorem result_eq (x0 : FVec Ideal S16384x4096 .f32) (x1 : FVec Ideal S4096x4096 .f32) (x2 : FVec Ideal S4096 .f32) :
    val_main_v11 (F := Ideal) x0 x1 x2 = Cert.BinLinear.affine x0 (val_main_v7 (F := Ideal) x1) x2 := by
  funext i
  have el : ∀ k : Fin 4096, lidx_main_v8 i k = ix2 (i 0) k := fun k =>
    funext fun a => Fin.ext (by match a with | ⟨0, _⟩ => rfl | ⟨1, _⟩ => rfl)
  have er : ∀ k : Fin 4096, ridx_main_v8 i k = ix2 (i 1) k := fun k =>
    funext fun a => Fin.ext (by match a with | ⟨0, _⟩ => rfl | ⟨1, _⟩ => rfl)
  have eb : idx_main_v9 (idx_main_v10 i) = ix1 (i 1) :=
    funext fun a => Fin.ext (by match a with | ⟨0, _⟩ => rfl)
  rw [val_main_v11_apply, val_main_v8_apply, val_main_v10_apply, val_main_v9_apply]
  simp only [el, er, eb]
  rfl

end Cert.ReferenceIdeal.RefValue

end
-- ==== Proof.lean ====
/-
  A binarized linear layer: `y = x · (sign(W) · mean|W|)ᵀ + bias` over x : [16384, 4096], W : [4096, 4096],
  bias : [4096] — a tiled matrix-product kernel against one contraction on the host.

  Both programs first binarize the weight by the same host operations (absolute value, row sum, division by 4096,
  sign, product). The kernel then narrows `x` and the binarized weight to bf16 — the identity on extended reals —
  and runs a grid of 8 × 4 × 4 points: for each [2048, 1024] output block it starts from zero, adds over four
  points the partial products along four consecutive stretches of 1024 contraction columns, and adds the bias row
  at the last. The reference contracts all 4096 columns at once and adds the broadcast bias. On the extended reals
  addition is associative with unit `0`, so "zero plus four partial sums, in order" is the whole sum: the two
  results are equal entry by entry, with no use of the inputs' finiteness.

  The pieces: `Spec.lean` (the affine map and the regrouping of the sum), `Payload.lean` (the kernel body at an
  entry), `Blocks.lean` (the windows' blocks as entries of the arguments), `KernelSide.lean` (the kernel's result
  array is the affine map), `RefSide.lean` (so is the reference's). The kernel's run with its result array named and
  the reference's run are the generated modules imported below; the frames are those runs with the result dropped.
-/
import proofs.«171375_j38147899523752_2_alg».proof.Defs
import proofs.«171375_j38147899523752_2_alg».proof.Proof.Gen.Kernel.Frame
import proofs.«171375_j38147899523752_2_alg».proof.Proof.Gen.KernelIdeal.Value
import proofs.«171375_j38147899523752_2_alg».proof.Proof.Gen.Pre_finite_inputs
import proofs.«171375_j38147899523752_2_alg».proof.Proof.Gen.ReferenceIdeal.Run
import proofs.«171375_j38147899523752_2_alg».proof.Proof.Gen.ReferenceIdeal.Read
import proofs.«171375_j38147899523752_2_alg».proof.Proof.KernelSide
import proofs.«171375_j38147899523752_2_alg».proof.Proof.RefSide
import Idealize.ShloMosaic.Adequacy
import Idealize.ShloMosaic.Init

noncomputable section

namespace Cert.Proof

open Idealize.ShloMosaic Idealize.SL.Sem

theorem frame_KernelIdeal : frame_KernelIdeal := fun m ρ _ =>
  (θ_run Cert.KernelIdeal.defs _ _).mono (fun _ h c => (h c).2) (Cert.KernelIdeal.Value.run (F := Ideal) m ρ)

theorem frame_ReferenceIdeal : frame_ReferenceIdeal := fun m ρ _ =>
  (θ_run Cert.ReferenceIdeal.defs _ _).mono (fun _ h c => (h c).2) (Cert.ReferenceIdeal.Value.run (F := Ideal) m ρ)

/-- The two programs binarize the weight by the same operations on the same shapes: one term. -/
theorem binarized_eq (W : FVec Ideal Cert.KernelIdeal.S4096x4096 .f32) :
    Cert.ReferenceIdeal.Read.val_main_v7 (F := Ideal) W = Cert.KernelIdeal.Blocks.binarized W := rfl

/-- Both result arrays are the affine map of `x`, the binarized weight and the bias, and the memories agree on the
    three arguments. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1, Cert.ReferenceIdeal.Read.val_main_v11_eq, Cert.ReferenceIdeal.RefValue.result_eq,
    Cert.KernelIdeal.RefValue.G3_eq, (hagree c).1, (hagree c).2.1, (hagree c).2.2, binarized_eq]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
